-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S1600000 : Shape := ⟨1, ![1600000]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S1600000 .f32) (main_arg2 : IVec S1600000 32) (main_arg3 : IVec S1600000 32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S1600000 : Shape := ⟨1, ![1600000]⟩
abbrev S4096 : Shape := ⟨1, ![4096]⟩
abbrev S_ : Shape := ⟨0, ![]⟩
abbrev S4096x4096 : Shape := ⟨2, ![4096, 4096]⟩
abbrev S1600000x1 : Shape := ⟨2, ![1600000, 1]⟩
abbrev S1600000x2 : Shape := ⟨2, ![1600000, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 30
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .bf16⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S2x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bitsLt_bf16_f32 : FTy.bits .bf16 < FTy.bits .f32
  shapeCasts_S2x2048x4096_S4096x4096 : S2x2048x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S2x2048x4096 : S4096x4096.ShapeCasts S2x2048x4096
  scatter_S4096x4096_S1600000x2_S1600000_n_01_01_1_wf : ScatterDims.WF S4096x4096 S1600000x2 S1600000 [] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S1600000 : Shape := ⟨1, ![1600000]⟩
abbrev S4096 : Shape := ⟨1, ![4096]⟩
abbrev S_ : Shape := ⟨0, ![]⟩
abbrev S4096x4096 : Shape := ⟨2, ![4096, 4096]⟩
abbrev S1600000x1 : Shape := ⟨2, ![1600000, 1]⟩
abbrev S1600000x2 : Shape := ⟨2, ![1600000, 2]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S2x2048x4096, .f32⟩
  | .hbm, ⟨26, _⟩ => ⟨S1x1x4096, .f32⟩
  | .hbm, ⟨27, _⟩ => ⟨S2x2048x4096, .f32⟩
  | .hbm, ⟨28, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  scatter_S4096x4096_S1600000x2_S1600000_n_01_01_1_wf : ScatterDims.WF S4096x4096 S1600000x2 S1600000 [] [0, 1] [0, 1] 1
  dot_S2x2048x4096_S4096x4096_S2x2048x4096_2_1_01_0_n_n_wf : DotDims.WF S2x2048x4096 S4096x4096 S2x2048x4096 [2] [1] [0, 1] [0] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.Pieces.lean ====
/-
  What one grid point leaves in the output block's staging buffer, as a value.

  The body at grid point (i, j, k) computes `d = a · bᵀ` of its two operand tiles and adds it into the output tile. At
  the first point of the reduction axis (k = 0) it first stores the bias row broadcast over the tile's rows, reads that
  back, and stores `bias + d`; at every later point (k > 0) it reads what the point before left and stores `previous + d`.
  Both are a single store covering the whole tile as the LAST store, so what the buffer holds afterwards is that store's
  payload: `pay2 a b (pay1 bias)` at the first point, `pay2 a b previous` later, where `pay1` is the broadcast and
  `pay2 a b acc = acc + a · bᵀ`. Stated for any float instance.
-/
import proofs.«118737_j9861244911617_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-tile access. -/
theorem zero_offsets : (![0, 0] : Fin 2 → Nat) = fun _ => 0 := funext fun a => by fin_cases a <;> rfl

/-- A LATER point of the reduction axis (k > 0): the tile ends at `previous + a · bᵀ`, the one covering store's
    payload over the whole operand tiles and the whole previous contents. -/
theorem later_point (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (hc : ¬cond0_0 i)
    (x0 : Vec F S1024x1024 .f32) (x1 : Vec F S1024x1024 .bf16) (x2 : Vec F S1x1024 .f32) (prev : Vec F S1024x1024 .f32) :
    out0_B_3 c i a3 h3 a4 h4 a5 h5 a6 h6 hc x0 x1 x2 prev = k0_pay2 x0 x1 prev := by
  unfold out0_B_3
  rw [View.read_writes_eq_canon _ _ _ (cover0_B_3 c i a3 h3 a4 h4 a5 h5 a6 h6 hc x0 x1 x2 prev)]
  unfold kernelRun0_B
  dsimp only
  rw [View.canon_unit_zero zero_offsets]
  simp only [View.readAt_eq_ld, h3.read_unread, h4.read_unread, h6.read_unread,
    View.ld_unit_zero (S := S1024x1024) zero_offsets]

/-- The FIRST point of the reduction axis (k = 0): the bias broadcast is stored, read back whole, and the tile ends at
    `broadcast bias + a · bᵀ` — the second store covers the first. -/
theorem first_point (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (hc : cond0_0 i)
    (x0 : Vec F S1024x1024 .f32) (x1 : Vec F S1024x1024 .bf16) (x2 : Vec F S1x1024 .f32) :
    out0_A_3 c i a3 h3 a4 h4 a5 h5 a6 h6 hc x0 x1 x2 = k0_pay2 x0 x1 (k0_pay1 x2) := by
  unfold out0_A_3
  rw [View.read_writes_eq_canon _ _ _ (cover0_A_3 c i a3 h3 a4 h4 a5 h5 a6 h6 hc x0 x1 x2)]
  unfold kernelRun0_A
  dsimp only
  sl_unfold_words
  rw [View.canon_cons_unit_zero (S := S1024x1024) zero_offsets,
    View.readCov_unit_zero (S := S1024x1024) _ zero_offsets]
  simp only [View.readAt_eq_ld, h3.read_unread, h4.read_unread, h5.read_unread,
    View.ld_unit_zero (S := S1024x1024) zero_offsets, View.ld_unit_zero (S := S1x1024) zero_offsets]

end Cert.KernelIdeal.Pieces

end
-- ==== Proof.Payload.lean ====
/-
  The body's two payloads read at one element, over the extended reals.

  `pay1 bias` is the bias row [1, 1024] broadcast over the 1024 rows of the tile: element (p, q) is `bias (0, q)`.
  `pay2 a b acc` is `acc + a · bᵀ` with both operands contracted along their second axis: element (p, q) is
  `acc (p, q) + Σ_k a (p, k) · b (q, k)` — the change of format of `a` is the identity on the extended reals, the
  product unit's accumulator is the zero tile, and the contraction index is its one coordinate.
-/
import proofs.«118737_j9861244911617_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The tile product's dimension numbers: both operands contracted along axis 1, rows of the left operand and rows of
    the right operand kept. -/
abbrev tileDot : DotDims S1024x1024 S1024x1024 S1024x1024 := dot_S1024x1024_S1024x1024_S1024x1024_1_1_0_0_n_n

/-- The broadcast bias tile at (p, q) is the bias row at q. -/
theorem bias_tile_at (x2 : Vec Ideal S1x1024 .f32) (p q : Fin 1024) :
    k0_pay1 x2 (ix2 p q) = x2 (ix2 (0 : Fin 1) q) := by
  unfold k0_pay1
  refine (broadcastTo_apply _ broadcasts_S1x1024_S1024x1024 (ix2 p q) (ix2 (0 : Fin 1) q) (fun a => ?_)).trans ?_
  · match a with
    | ⟨0, _⟩ => rfl
    | ⟨1, _⟩ => rfl
  · rw [shapeCast_self, shapeCast_self]

/-- The left operand of the product at (output (p, q), contraction k) is read at (p, k). -/
theorem lhs_row (j : S1024x1024.Idx) (k : tileDot.contr.Idx) : (tileDot.lhsIdx j k 0).val = (j 0).val := by
  unfold DotDims.lhsIdx
  rw [dif_neg (show ¬(0 : Fin S1024x1024.rank) ∈ tileDot.lhsBatch by decide),
    dif_pos (show (0 : Fin S1024x1024.rank) ∈ tileDot.lhsNonContracting by decide)]
  rfl
theorem lhs_col (j : S1024x1024.Idx) (k : tileDot.contr.Idx) : (tileDot.lhsIdx j k 1).val = (k ⟨0, by decide⟩).val :=
  tileDot.lhsIdx_val_of_single rfl j k
/-- The right operand is read at (q, k). -/
theorem rhs_row (j : S1024x1024.Idx) (k : tileDot.contr.Idx) : (tileDot.rhsIdx j k 0).val = (j 1).val := by
  unfold DotDims.rhsIdx
  rw [dif_neg (show ¬(0 : Fin S1024x1024.rank) ∈ tileDot.rhsBatch by decide),
    dif_pos (show (0 : Fin S1024x1024.rank) ∈ tileDot.rhsNonContracting by decide)]
  rfl
theorem rhs_col (j : S1024x1024.Idx) (k : tileDot.contr.Idx) : (tileDot.rhsIdx j k 1).val = (k ⟨0, by decide⟩).val :=
  tileDot.rhsIdx_val_of_single rfl j k

/-- The accumulating payload at (p, q): what was there plus the row-by-row inner product of the two operand tiles. -/
theorem accumulate_at (x0 : Vec Ideal S1024x1024 .f32) (x1 : Vec Ideal S1024x1024 .bf16) (acc : Vec Ideal S1024x1024 .f32)
    (p q : Fin 1024) :
    k0_pay2 x0 x1 acc (ix2 p q) = (acc (ix2 p q) : EReal) + ∑ k : Fin 1024, (x0 (ix2 p k) : EReal) * (x1 (ix2 q k) : EReal) := by
  unfold k0_pay2
  refine (addf_apply _ _ (ix2 p q)).trans ?_
  refine congrArg₂ (· + ·) (congrFun (shapeCast_self acc _) (ix2 p q)) ?_
  refine (Ideal.matmul_constant_zero_apply tileDot none _ _ (ix2 p q)).trans ?_
  rw [← Equiv.sum_comp (contrEquiv1 tileDot 1024 rfl rfl).symm]
  refine Finset.sum_congr rfl fun k _ => ?_
  have hk := contrEquiv1_symm_val tileDot 1024 rfl rfl k
  have el : tileDot.lhsIdx (ix2 p q) ((contrEquiv1 tileDot 1024 rfl rfl).symm k) = ix2 p k := funext fun a => Fin.ext (by
    match a with
    | ⟨0, _⟩ => exact lhs_row _ _
    | ⟨1, _⟩ => exact (lhs_col _ _).trans hk)
  have er : tileDot.rhsIdx (ix2 p q) ((contrEquiv1 tileDot 1024 rfl rfl).symm k) = ix2 q k := funext fun a => Fin.ext (by
    match a with
    | ⟨0, _⟩ => exact rhs_row _ _
    | ⟨1, _⟩ => exact (rhs_col _ _).trans hk)
  rw [el, er, shapeCast_self, shapeCast_self]
  rfl

end Cert.KernelIdeal.Payload

end
-- ==== Proof.Fold.lean ====
/-
  What the output tile's staging buffer holds after each grid point, over the extended reals.

  Points 4·u, 4·u + 1, 4·u + 2, 4·u + 3 are the four steps k = 0 … 3 of the reduction axis for one output tile (i, j).
  The first resets the tile to `bias + d₀`, each later one adds its own product `d_k` of operand tiles to what the point
  before left, so after point 4·u + k the buffer holds `bias + (d₀ + … + d_k)`: the run's fold, unrolled once by
  induction along the run and never by enumerating the grid.
-/
import proofs.«118737_j9861244911617_2_alg».proof.Proof.Pieces
import proofs.«118737_j9861244911617_2_alg».proof.Proof.Payload

noncomputable section

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- What a first point of a run (k = 0) leaves: the broadcast bias plus the product of the point's operand tiles. -/
def resetAt (c : Dev nD) (n : ℕ) (h : n < cfg0.N) : Vec Ideal S1024x1024 .f32 :=
  k0_pay2 (iblk m c 0 ⟨n, h⟩) (iblk m c 1 ⟨n, h⟩) (k0_pay1 (iblk m c 2 ⟨n, h⟩))

/-- What a later point (k > 0) makes of what the point before left: it adds the product of its own operand tiles. -/
def stepAt (c : Dev nD) (n : ℕ) (h : n < cfg0.N) (acc : Vec Ideal S1024x1024 .f32) : Vec Ideal S1024x1024 .f32 :=
  k0_pay2 (iblk m c 0 ⟨n, h⟩) (iblk m c 1 ⟨n, h⟩) acc

/-- At a multiple of 4 the buffer is reset. -/
theorem outs_reset (c : Dev nD) (n : ℕ) (h : n < cfg0.N) (h0 : n % 4 = 0) : outsAt0 m c n h = resetAt m c n h :=
  (outsAt0_A m c ⟨n, h⟩ h0).trans
    (Pieces.first_point c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) ((hcond0_0 ⟨n, h⟩).mpr h0)
      (iblk m c 0 ⟨n, h⟩) (iblk m c 1 ⟨n, h⟩) (iblk m c 2 ⟨n, h⟩))

/-- Elsewhere it steps from what the point before left. -/
theorem outs_step (c : Dev nD) (n : ℕ) (h : n + 1 < cfg0.N) (hne : ¬(n + 1) % 4 = 0) :
    outsAt0 m c (n + 1) h = stepAt m c (n + 1) h (outsAt0 m c n (Nat.lt_of_succ_lt h)) :=
  (outsAt0_B m c ⟨n + 1, h⟩ hne).trans
    (Pieces.later_point c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hc => hne ((hcond0_0 ⟨n + 1, h⟩).mp hc))
      (iblk m c 0 ⟨n + 1, h⟩) (iblk m c 1 ⟨n + 1, h⟩) (iblk m c 2 ⟨n + 1, h⟩) (outsAt0 m c n (Nat.lt_of_succ_lt h)))

/-- The inner product of row p of a left tile and row q of a right tile, at the tile element `y` = (p, q). -/
def rowDot (x0 : Vec Ideal S1024x1024 .f32) (x1 : Vec Ideal S1024x1024 .bf16) (y : S1024x1024.Idx) : EReal :=
  ∑ k : Fin 1024, (x0 (ix2 (y 0) k) : EReal) * (x1 (ix2 (y 1) k) : EReal)

/-- The bias row's entry above the tile element `y` = (p, q): column q. -/
def biasAt (x2 : Vec Ideal S1x1024 .f32) (y : S1024x1024.Idx) : EReal := x2 (ix2 (0 : Fin 1) (y 1))

/-- Point `n`'s addend at a tile element: the inner product of its two operand tiles' rows (zero past the grid, where it
    is never used). -/
def addend (c : Dev nD) (n : ℕ) (y : S1024x1024.Idx) : EReal :=
  if h : n < cfg0.N then rowDot (iblk m c 0 ⟨n, h⟩) (iblk m c 1 ⟨n, h⟩) y else 0

/-- The reset value at an element: the bias row's entry plus the point's addend. -/
theorem resetAt_apply (c : Dev nD) (n : ℕ) (h : n < cfg0.N) (y : S1024x1024.Idx) :
    resetAt m c n h y = biasAt (iblk m c 2 ⟨n, h⟩) y + addend m c n y := by
  unfold resetAt addend biasAt rowDot
  rw [dif_pos h]
  refine (congrArg _ (eq_ix2 y)).trans ?_
  refine (Payload.accumulate_at (iblk m c 0 ⟨n, h⟩) (iblk m c 1 ⟨n, h⟩) (k0_pay1 (iblk m c 2 ⟨n, h⟩)) (y 0) (y 1)).trans ?_
  exact congrArg (· + _) (Payload.bias_tile_at (iblk m c 2 ⟨n, h⟩) (y 0) (y 1))

/-- A step at an element: what was there plus the point's addend. -/
theorem stepAt_apply (c : Dev nD) (n : ℕ) (h : n < cfg0.N) (acc : Vec Ideal S1024x1024 .f32) (y : S1024x1024.Idx) :
    stepAt m c n h acc y = (acc y : EReal) + addend m c n y := by
  unfold stepAt addend rowDot
  rw [dif_pos h]
  refine (congrArg _ (eq_ix2 y)).trans ?_
  refine (Payload.accumulate_at (iblk m c 0 ⟨n, h⟩) (iblk m c 1 ⟨n, h⟩) acc (y 0) (y 1)).trans ?_
  exact congrArg (fun z => (acc z : EReal) + _) (eq_ix2 y).symm

/-- AFTER POINT `t` the buffer holds, at each element, the bias entry of the run's first point plus the addends of the
    run's points up to `t`. -/
theorem outs_unrolled (c : Dev nD) (t : Fin cfg0.N) (hb : 4 * (t.val / 4) < cfg0.N) (y : S1024x1024.Idx) :
    outsAt0 m c t.val t.isLt y
      = biasAt (iblk m c 2 ⟨4 * (t.val / 4), hb⟩) y
        + ∑ s ∈ Finset.range (t.val % 4 + 1), addend m c (4 * (t.val / 4) + s) y := by
  have h' : 4 * (t.val / 4) + t.val % 4 < cfg0.N := by rw [Nat.div_add_mod]; exact t.isLt
  rw [Pipeline.eq_accAt_of_mod (outsAt0 m c) 4 (resetAt m c) (stepAt m c) (outs_reset m c) (outs_step m c)
    (by decide) t.val t.isLt h']
  exact Pipeline.accAt_add_apply (resetAt m c) (stepAt m c)
    (fun y => biasAt (iblk m c 2 ⟨4 * (t.val / 4), hb⟩) y)
    (addend m c) (4 * (t.val / 4)) 3
    (fun h y => resetAt_apply m c _ h y)
    (fun n h acc y _ _ => stepAt_apply m c n h acc y)
    (t.val % 4) (by omega) h' y

end Cert.KernelIdeal.Fold

end
-- ==== Proof.Blocks.lean ====
/-
  The tiles the body sees at a grid point, as rectangles of the whole arrays.

  The grid is 4 × 4 × 4 and point number `t` is (i, j, k) = (t / 16, t / 4 mod 4, t mod 4), the reduction axis k
  fastest. At that point the left operand's tile is rows 1024·i …, columns 1024·k … of the [4096, 4096] left array; the
  right operand's tile is rows 1024·j …, columns 1024·k … of the right array; the bias tile is columns 1024·j … of the
  [1, 4096] bias row; and the output tile is rows 1024·i …, columns 1024·j … of the result. An element of a tile sits in
  its array at (tile index) · 1024 + (its coordinate in the tile), axis by axis. Stated for any float instance.
-/
import proofs.«118737_j9861244911617_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The four index maps at point `t`, in closed form: decided over the 64 points. -/
theorem tile_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left operand's tile at point `t`, element (p, k): the left array at (1024·i + p, 1024·k' + k). -/
theorem left_tile_at (c : Dev nD) (t : Fin cfg0.N) (p k : Fin 1024) (R K : Fin 4096)
    (hR : R.val = 1024 * (t.val / 16) + p.val) (hK : K.val = 1024 * (t.val % 4) + k.val) :
    (iblk m c 0 t : Vec F S1024x1024 .f32) (ix2 p k) = V m c main_v16 (ix2 R K) := by
  obtain ⟨e0, e1, -⟩ := tile_indices t
  unfold iblk
  rw [View.read_apply]
  show V m c main_v16 _ = V m c main_v16 _
  congr 1
  funext a
  apply Fin.ext
  match a with
  | ⟨0, _⟩ => show win0_0.index t (0 : Fin 2) * 1024 + 1 * p.val = R.val; rw [e0, hR]; omega
  | ⟨1, _⟩ => show win0_0.index t (1 : Fin 2) * 1024 + 1 * k.val = K.val; rw [e1, hK]; omega

/-- The right operand's tile at point `t`, element (q, k): the right array at (1024·j + q, 1024·k' + k). -/
theorem right_tile_at (c : Dev nD) (t : Fin cfg0.N) (q k : Fin 1024) (C K : Fin 4096)
    (hC : C.val = 1024 * (t.val / 4 % 4) + q.val) (hK : K.val = 1024 * (t.val % 4) + k.val) :
    (iblk m c 1 t : Vec F S1024x1024 .bf16) (ix2 q k) = V m c main_v15 (ix2 C K) := by
  obtain ⟨-, -, e2, e3, -⟩ := tile_indices t
  unfold iblk
  rw [View.read_apply]
  show V m c main_v15 _ = V m c main_v15 _
  congr 1
  funext a
  apply Fin.ext
  match a with
  | ⟨0, _⟩ => show win0_1.index t (0 : Fin 2) * 1024 + 1 * q.val = C.val; rw [e2, hC]; omega
  | ⟨1, _⟩ => show win0_1.index t (1 : Fin 2) * 1024 + 1 * k.val = K.val; rw [e3, hK]; omega

/-- The bias tile at point `t`, element (0, q): the bias row at column 1024·j + q. -/
theorem bias_tile_at (c : Dev nD) (t : Fin cfg0.N) (q : Fin 1024) (C : Fin 4096)
    (hC : C.val = 1024 * (t.val / 4 % 4) + q.val) :
    (iblk m c 2 t : Vec F S1x1024 .f32) (ix2 (0 : Fin 1) q) = V m c main_v17 (ix2 (0 : Fin 1) C) := by
  obtain ⟨-, -, -, -, e4, e5, -⟩ := tile_indices t
  unfold iblk
  rw [View.read_apply]
  show V m c main_v17 _ = V m c main_v17 _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = C.val; rw [e5, hC]; omega

end Cert.KernelIdeal.Blocks

end
-- ==== Proof.BlockSum.lean ====
/-
  A sum over the first `b · a` naturals is the sum, block by block, of the sums over `a` consecutive blocks of length
  `b` — in any commutative additive monoid, so also on the extended reals, where only commutativity and associativity of
  addition are available.
-/
import Mathlib.Algebra.BigOperators.Fin

namespace Cert.BlockSum

open Finset

/-- The blocks, over ranges of naturals. -/
theorem sum_range_blocks {M : Type*} [AddCommMonoid M] (f : ℕ → M) (b : ℕ) :
    ∀ a : ℕ, ∑ s ∈ range a, ∑ k ∈ range b, f (b * s + k) = ∑ k ∈ range (b * a), f k
  | 0 => by simp
  | a + 1 => by rw [sum_range_succ, sum_range_blocks f b a, Nat.mul_succ, sum_range_add]

/-- The same with the long sum and the inner sums indexed by `Fin`. -/
theorem sum_fin_blocks {M : Type*} [AddCommMonoid M] (f : ℕ → M) (b a n : ℕ) (hn : n = b * a) :
    ∑ k : Fin n, f k.val = ∑ s ∈ range a, ∑ k : Fin b, f (b * s + k.val) := by
  subst hn
  rw [← Finset.sum_range f, ← sum_range_blocks f b a]
  exact Finset.sum_congr rfl fun s _ => Finset.sum_range fun k => f (b * s + k)

end Cert.BlockSum
-- ==== Proof.TileValue.lean ====
/-
  A finished output tile, element by element, in terms of the whole arrays.

  At the last point of a run (k = 3) the tile (i, j) holds, at its element (p, q), the bias entry of column
  C = 1024·j + q plus the four partial inner products over the column blocks 1024·s … 1024·s + 1023 (s = 0 … 3) of row
  R = 1024·i + p of the left array and row C of the right array. Four consecutive blocks of 1024 make up the 4096
  columns, so that is `bias C + Σ_{k < 4096} left (R, k) · right (C, k)` — the regrouping uses only that addition of
  extended reals is commutative and associative, so no finiteness is needed.
-/
import proofs.«118737_j9861244911617_2_alg».proof.Proof.Fold
import proofs.«118737_j9861244911617_2_alg».proof.Proof.Blocks
import proofs.«118737_j9861244911617_2_alg».proof.Proof.BlockSum

noncomputable section

open Idealize.ShloMosaic Idealize.ShloMosaic.TcCoe Idealize.SL.Sem Idealize.ShloMosaic.ValueIdx

namespace Cert.KernelIdeal.TileValue

open Cert.KernelIdeal Cert.KernelIdeal.Gen

/-- The inner product of row R of a [4096, 4096] left array and row C of a [4096, 4096] right array. -/
def longDot (X : Vec Ideal S4096x4096 .f32) (W : Vec Ideal S4096x4096 .bf16) (R C : Fin 4096) : EReal :=
  ∑ k : Fin 4096, (X (ix2 R k) : EReal) * (W (ix2 C k) : EReal)

/-- The bias row's entry at column C. -/
def biasEntry (B : Vec Ideal S1x4096 .f32) (C : Fin 4096) : EReal := B (ix2 (0 : Fin 1) C)

/-- Its k-th term, as a function of every natural (zero past the last column). -/
def term (X : Vec Ideal S4096x4096 .f32) (W : Vec Ideal S4096x4096 .bf16) (R C : Fin 4096) (k : ℕ) : EReal :=
  if h : k < 4096 then (X (ix2 R ⟨k, h⟩) : EReal) * (W (ix2 C ⟨k, h⟩) : EReal) else 0

/-- The inner product, cut into the four column blocks. -/
theorem longDot_blocks (X : Vec Ideal S4096x4096 .f32) (W : Vec Ideal S4096x4096 .bf16) (R C : Fin 4096) :
    longDot X W R C = ∑ s ∈ Finset.range 4, ∑ k : Fin 1024, term X W R C (1024 * s + k.val) := by
  unfold longDot
  rw [← BlockSum.sum_fin_blocks (term X W R C) 1024 4 4096 rfl]
  exact Finset.sum_congr rfl fun k _ => by unfold term; rw [dif_pos k.isLt]

variable (m : (ℓ : Loc nD τ sig) → Buf (Elt Ideal) ℓ)

/-- THE FINISHED TILE at the last point `t` of a run, element `y` = (p, q), sitting at (R, C) of the result. -/
theorem tile_value (c : Dev nD) (t : Fin cfg0.N) (ht : t.val % 4 = 3) (y : S1024x1024.Idx) (R C : Fin 4096)
    (hR : R.val = 1024 * (t.val / 16) + (y 0).val) (hC : C.val = 1024 * (t.val / 4 % 4) + (y 1).val) :
    outsAt0 m c t.val t.isLt y
      = biasEntry (V m c main_v17) C + longDot (V m c main_v16) (V m c main_v15) R C := by
  have hN : cfg0.N = 64 := N_0
  have hlt : t.val < 64 := lt_of_lt_of_eq t.isLt hN
  have hb : 4 * (t.val / 4) < cfg0.N := lt_of_lt_of_eq (by omega : 4 * (t.val / 4) < 64) hN.symm
  rw [Fold.outs_unrolled m c t hb y, ht, show (3 + 1 : ℕ) = 4 from rfl, longDot_blocks]
  refine congrArg₂ (· + ·) ?_ (Finset.sum_congr rfl fun s hs => ?_)
  · unfold Fold.biasAt biasEntry
    exact Blocks.bias_tile_at m c ⟨4 * (t.val / 4), hb⟩ (y 1) C
      (by show C.val = 1024 * (4 * (t.val / 4) / 4 % 4) + (y 1).val; omega)
  · have hs4 : s < 4 := Finset.mem_range.mp hs
    have hp : 4 * (t.val / 4) + s < cfg0.N := lt_of_lt_of_eq (by omega : 4 * (t.val / 4) + s < 64) hN.symm
    unfold Fold.addend Fold.rowDot
    rw [dif_pos hp]
    refine Finset.sum_congr rfl fun k _ => ?_
    have hk : 1024 * s + k.val < 4096 := by have := k.isLt; omega
    unfold term
    rw [dif_pos hk]
    refine congrArg₂ (· * ·) ?_ ?_
    · exact Blocks.left_tile_at m c ⟨4 * (t.val / 4) + s, hp⟩ (y 0) k R ⟨1024 * s + k.val, hk⟩
        (by show R.val = 1024 * ((4 * (t.val / 4) + s) / 16) + (y 0).val; omega)
        (by show 1024 * s + k.val = 1024 * ((4 * (t.val / 4) + s) % 4) + k.val; omega)
    · exact Blocks.right_tile_at m c ⟨4 * (t.val / 4) + s, hp⟩ (y 1) k C ⟨1024 * s + k.val, hk⟩
        (by show C.val = 1024 * ((4 * (t.val / 4) + s) / 4 % 4) + (y 1).val; omega)
        (by show 1024 * s + k.val = 1024 * ((4 * (t.val / 4) + s) % 4) + k.val; omega)

end Cert.KernelIdeal.TileValue

end
-- ==== Proof.Result.lean ====
/-
  The array the region leaves: the bias row plus the left array times the transposed right array.

  Each of the 16 output tiles (i, j) is written back once, after the last point of its run, and then holds the tile's
  rectangle of ONE whole-array function — `product`: entry (R, C) is `bias C + Σ_k left (R, k) · right (C, k)`. The tiles
  cover the [4096, 4096] result (entry (R, C) is in the tile (R / 1024, C / 1024)), so after the region the result array
  is `product` of the three arrays the region found.
-/
import proofs.«118737_j9861244911617_2_alg».proof.Proof.TileValue

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

/-- Bias row plus left · rightᵀ, entry by entry, on the extended reals. -/
def product (X : Vec Ideal S4096x4096 .f32) (W : Vec Ideal S4096x4096 .bf16) (B : Vec Ideal S1x4096 .f32) :
    Vec Ideal S4096x4096 .f32 :=
  fun i => TileValue.biasEntry B (i 1) + TileValue.longDot X W (i 0) (i 1)

variable (m : (ℓ : Loc nD τ sig) → Buf (Elt Ideal) ℓ)

/-- `product` of the arrays as the region finds them: the reshaped activations, the weight matrix, the bias row. -/
def regionResult (c : Dev nD) : Vec Ideal S4096x4096 .f32 :=
  product (V m c main_v16) (V m c main_v15) (V m c main_v17)

/-- WHAT A WRITING POINT WRITES BACK is its tile of `regionResult`. -/
theorem flushed_eq (c : Dev nD) (t : Fin cfg0.N) (hf : (cfg0.win 3).flush t = true) :
    (dats m 0 c).flushed 3 t = ((cfg0.win 3).blk t).view.read (Elt Ideal) (regionResult m c) := by
  have ht : t.val % 4 = 3 := (flush0_3 t).mp hf
  obtain ⟨-, -, -, -, -, -, e6, e7⟩ := Blocks.tile_indices t
  show (cfg0.win 3).cut (grid0.coords t) ((dats m 0 c).after 3 t) = _
  rw [after0_3]
  funext y
  rw [View.read_apply]
  show outsAt0 m c t.val t.isLt y = regionResult m c (((cfg0.win 3).blk t).view.emb y)
  exact TileValue.tile_value m c t ht y _ _
    (by show win0_3.index t (0 : Fin 2) * 1024 + 1 * (y 0).val = 1024 * (t.val / 16) + (y 0).val; rw [e6]; omega)
    (by show win0_3.index t (1 : Fin 2) * 1024 + 1 * (y 1).val = 1024 * (t.val / 4 % 4) + (y 1).val; rw [e7]; omega)

/-- An entry of the result is in point `t`'s tile iff each coordinate is in the tile's range on its axis. -/
theorem mem_tile (t : Fin cfg0.N) (i : S4096x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v18).slice (win0_3.rect t)).set ↔ _
  rw [View.set_slice_whole, Rect.mem_set_unit]
  exact Iff.rfl

/-- Every entry (R, C) is in the tile written back at the last point of the run of (R / 1024, C / 1024). -/
theorem cover (i : S4096x4096.Idx) :
    ∃ t : Fin cfg0.N, (cfg0.win 3).flush t = true ∧ i ∈ ((cfg0.win 3).blk t).view.set := by
  have hN : cfg0.N = 64 := N_0
  have h0 : (i 0).val < 4096 := (i 0).isLt
  have h1 : (i 1).val < 4096 := (i 1).isLt
  obtain ⟨t, htv⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e6, e7⟩ := Blocks.tile_indices t
  refine ⟨t, (flush0_3 t).mpr (by omega), ?_⟩
  rw [mem_tile]
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 1024 ≤ (i 1).val ∧ (i 1).val < win0_3.index t (1 : Fin 2) * 1024 + 1024
    rw [e7]; omega

/-- THE RESULT ARRAY after the region. -/
theorem region_final (c : Dev nD) : (dats m 0 c).arrAt 3 cfg0.N = regionResult m c :=
  (dats m 0 c).arrAt_eq_of_cover 3 (regionResult m c) (flushed_eq m c) cover

end Cert.KernelIdeal.Result

end
-- ==== Proof.HostSide.lean ====
/-
  The host lines around the region.

  Before the region the program reshapes the activations [2, 2048, 4096] to the left array [4096, 4096], builds the
  weight matrix by scatter-adding the values at (row, column) into a zero matrix — the very operations, on the very
  arguments, by which the reference builds its weight matrix — and changes its format, and reshapes the bias [4096] to
  the row [1, 4096]. After the region it reshapes the [4096, 4096] result to [2, 2048, 4096]. So the program's result is
  that reshape of `product` of those three arrays.
-/
import proofs.«118737_j9861244911617_2_alg».proof.Proof.Result
import proofs.«118737_j9861244911617_2_alg».proof.Proof.Gen.ReferenceIdeal.Read
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.HostSide

open Cert.KernelIdeal Cert.KernelIdeal.Gen

variable (m : (ℓ : Loc nD τ sig) → Buf (Elt Ideal) ℓ) (ρ : Dev nD → PrngReg)

/-- The weight matrix as both programs build it: the reference's scatter-add stage of (values, rows, columns). -/
abbrev weights (c : Dev nD) : FVec Ideal S4096x4096 .f32 :=
  Cert.ReferenceIdeal.Read.val_main_v14 (F := Ideal) (m ((c : Thread nD τ).loc main_arg1))
    (m ((c : Thread nD τ).loc main_arg2)) (m ((c : Thread nD τ).loc main_arg3))

/-- The left array the region finds: the activations reshaped. -/
theorem left_found (c : Dev nD) :
    V m c main_v16 = shapeCast S4096x4096 (m ((c : Thread nD τ).loc main_arg0)) shapeCasts_S2x2048x4096_S4096x4096 := by
  show StableHlo.after hostOps0 (fun b => m (c, b)) (Proc.devRef .tc main_v16) = _
  after_results
  rfl

/-- The bias row it finds: the bias reshaped. -/
theorem bias_found (c : Dev nD) :
    V m c main_v17 = shapeCast S1x4096 (m ((c : Thread nD τ).loc main_arg4)) shapeCasts_S4096_S1x4096 := by
  show StableHlo.after hostOps0 (fun b => m (c, b)) (Proc.devRef .tc main_v17) = _
  after_results
  rfl

-- the weight matrix depends on the arguments through twenty host operations: the two index normalisations (a negative
-- index wraps by 4096), their stacking into (row, column) pairs, the zero matrix, the scatter-add, the change of format
set_option maxHeartbeats 2000000 in
/-- The right array it finds: the weight matrix in the narrower format. -/
theorem right_found (c : Dev nD) :
    (V m c main_v15 : FVec Ideal S4096x4096 .bf16) = truncf .bf16 (weights m c) bitsLt_bf16_f32 := by
  show StableHlo.after hostOps0 (fun b => m (c, b)) (Proc.devRef .tc main_v15) = _
  after_results
  rfl

/-- The program's result: the reshape, after the region, of the array the region leaves. -/
theorem result_found (c : Dev nD) :
    Pipeline.afterTail₀ cfgs (dats m) 0 (V0 m) [hostOps1] c main_v19
      = shapeCast S2x2048x4096 (Result.regionResult m c) shapeCasts_S4096x4096_S2x2048x4096 := by
  unfold Pipeline.afterTail₀
  show StableHlo.after hostOps1 _ (Proc.devRef .tc main_v19) = _
  after_results
  funext i
  exact congrFun (congrArg (fun z => shapeCast S2x2048x4096 z shapeCasts_S4096x4096_S2x2048x4096)
    ((Pipeline.withArrays_arr spec0 launch0.win.arr_inj c (V0 m c) (fun w => (dats m 0 c).arrAt w cfg0.N) 3).trans
      (Result.region_final m c))) i

/-- THE RUN, READ: every weakly fair execution terminates with the result at that reshape and the arguments unchanged. -/
theorem run : θ_run defs (onTc (τ := τ) (main (F := Ideal))) ⟨m, fun _ => 0, ρ⟩ fun r => ∀ c : Dev nD,
      r.2.mem ((c.tc : Thread nD τ).loc main_v19)
        = shapeCast S2x2048x4096 (Result.regionResult m c) shapeCasts_S4096x4096_S2x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (result_found m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSide

end
-- ==== Proof.Spec.lean ====
/-
  The function both programs compute, on the extended reals: a dense layer over a batch of rows,

      y[b, s, o] = bias[o] + Σ_{k < 4096} x[b, s, k] · W[o, k],

  for activations `x` [2, 2048, 4096], a weight matrix `W` [4096, 4096] (output feature by input feature) and a bias
  [4096].
-/
import Idealize.ShloMosaic.PureOps.Ideal
import Idealize.ShloMosaic.Lib.ValueIdx

noncomputable section

open Idealize.ShloMosaic Idealize.ShloMosaic.ValueIdx

namespace Cert.Spec

/-- The activations' and the result's shape, the weight matrix's, the bias's. -/
abbrev Act : Shape := ⟨3, ![2, 2048, 4096]⟩
abbrev Mat : Shape := ⟨2, ![4096, 4096]⟩
abbrev Row : Shape := ⟨1, ![4096]⟩

/-- The dense layer, entry by entry. -/
def linear (x : Act.Idx → EReal) (W : Mat.Idx → EReal) (b : Row.Idx → EReal) : Act.Idx → EReal :=
  fun j => b (ix1 (j 2)) + ∑ k : Fin 4096, x (ix3 (j 0) (j 1) k) * W (ix2 (j 2) k)

end Cert.Spec

end
-- ==== Proof.Bridge.lean ====
/-
  Both programs compute `linear`.

  The kernel's program: row (b, s) of the activations is row 2048·b + s of the reshaped left array, so entry (b, s, o) of
  the reshaped result is entry (2048·b + s, o) of `product`, that is `bias o + Σ_k x (b, s, k) · W (o, k)` (the weight
  matrix's change of format is the identity on the extended reals). The reference: its contraction of the activations'
  last axis with the weight matrix's second axis is `Σ_k x (b, s, k) · W (o, k)`, to which it adds the bias broadcast
  along (b, s); the two differ by the order of one addition.
-/
import proofs.«118737_j9861244911617_2_alg».proof.Proof.HostSide
import proofs.«118737_j9861244911617_2_alg».proof.Proof.Spec

noncomputable section

open Idealize.ShloMosaic Idealize.ShloMosaic.TcCoe Idealize.SL.Sem Idealize.ShloMosaic.ValueIdx

namespace Cert.Bridge

open Cert.KernelIdeal.Result Cert.KernelIdeal.TileValue

/-- THE KERNEL'S SIDE, over any three arrays: the reshape of `product` of the reshaped activations, the re-formatted
    weight matrix and the reshaped bias is `linear`. -/
theorem reshaped_product_eq (x : Spec.Act.Idx → EReal) (Wf : Spec.Mat.Idx → EReal) (b : Spec.Row.Idx → EReal) :
    shapeCast Cert.KernelIdeal.S2x2048x4096
        (product (shapeCast Cert.KernelIdeal.S4096x4096 x Cert.KernelIdeal.Facts₀.shapeCasts_S2x2048x4096_S4096x4096)
          (truncf (F := Ideal) .bf16 (φ := .f32) Wf Cert.KernelIdeal.Facts₀.bitsLt_bf16_f32)
          (shapeCast Cert.KernelIdeal.S1x4096 b Cert.KernelIdeal.Facts₀.shapeCasts_S4096_S1x4096))
        Cert.KernelIdeal.Facts₀.shapeCasts_S4096x4096_S2x2048x4096
      = Spec.linear x Wf b := by
  funext j
  have h0 : (j 0).val < 2 := (j 0).isLt
  have h1 : (j 1).val < 2048 := (j 1).isLt
  have h2 : (j 2).val < 4096 := (j 2).isLt
  obtain ⟨R, hR⟩ : ∃ R : Fin 4096, R.val = 2048 * (j 0).val + (j 1).val := ⟨⟨2048 * (j 0).val + (j 1).val, by omega⟩, rfl⟩
  refine (shapeCast_apply _ _ j (ix2 R (j 2)) ?_).trans ?_
  · rw [Shape.rowMajor_val_two, Shape.rowMajor_val_three]
    show R.val * 4096 + (j 2).val = ((j 0).val * 2048 + (j 1).val) * 4096 + (j 2).val
    rw [hR]; omega
  · show biasEntry _ (j 2) + longDot _ _ R (j 2) = _
    unfold biasEntry longDot Spec.linear
    refine congrArg₂ (· + ·) ?_ (Finset.sum_congr rfl fun k _ => congrArg₂ (· * ·) ?_ rfl)
    · refine shapeCast_apply _ _ (ix2 (0 : Fin 1) (j 2)) (ix1 (j 2)) ?_
      rw [Shape.rowMajor_val_one, Shape.rowMajor_val_two]
      show (j 2).val = 0 * 4096 + (j 2).val
      omega
    · refine shapeCast_apply _ _ (ix2 R k) (ix3 (j 0) (j 1) k) ?_
      rw [Shape.rowMajor_val_three, Shape.rowMajor_val_two]
      show ((j 0).val * 2048 + (j 1).val) * 4096 + k.val = R.val * 4096 + k.val
      rw [hR]; omega

/-- THE REFERENCE'S SIDE: its last stage, of any arguments, is `linear` of the activations, its own weight-matrix stage
    and the bias. -/
theorem reference_eq (x0 : (⟨Cert.ReferenceIdeal.S2x2048x4096, .f32⟩ : BufTy).Contents (Elt Ideal))
    (x1 : (⟨Cert.ReferenceIdeal.S1600000, .f32⟩ : BufTy).Contents (Elt Ideal))
    (x2 x3 : (⟨Cert.ReferenceIdeal.S1600000, .i32⟩ : BufTy).Contents (Elt Ideal))
    (x4 : (⟨Cert.ReferenceIdeal.S4096, .f32⟩ : BufTy).Contents (Elt Ideal)) :
    Cert.ReferenceIdeal.Read.val_main_v18 (F := Ideal) x0 x1 x2 x3 x4
      = Spec.linear x0 (Cert.ReferenceIdeal.Read.val_main_v14 (F := Ideal) x1 x2 x3) x4 := by
  funext j
  rw [Cert.ReferenceIdeal.Read.val_main_v18_apply, Cert.ReferenceIdeal.Read.val_main_v15_apply,
    Cert.ReferenceIdeal.Read.val_main_v17_apply, Cert.ReferenceIdeal.Read.val_main_v16_apply]
  unfold Spec.linear
  refine (add_comm _ _).trans ?_
  refine congrArg₂ (· + ·) (congrArg x4 ?_) (Finset.sum_congr rfl fun k _ =>
    congrArg₂ (· * ·) (congrArg x0 ?_) (congrArg _ ?_))
  · funext a; match a with | ⟨0, _⟩ => rfl
  · funext a; match a with | ⟨0, _⟩ => rfl | ⟨1, _⟩ => rfl | ⟨2, _⟩ => rfl
  · funext a; match a with | ⟨0, _⟩ => rfl | ⟨1, _⟩ => rfl

/-- THE KERNEL'S RESULT, of the program's own arguments. -/
theorem kernel_result_eq (m : (ℓ : Loc Cert.KernelIdeal.nD Cert.KernelIdeal.τ Cert.KernelIdeal.sig) → Buf (Elt Ideal) ℓ)
    (c : Dev Cert.KernelIdeal.nD) :
    shapeCast Cert.KernelIdeal.S2x2048x4096 (regionResult m c) Cert.KernelIdeal.Facts₀.shapeCasts_S4096x4096_S2x2048x4096
      = Spec.linear (m ((c.tc : Thread Cert.KernelIdeal.nD Cert.KernelIdeal.τ).loc Cert.KernelIdeal.main_arg0))
          (Cert.KernelIdeal.HostSide.weights m c)
          (m ((c.tc : Thread Cert.KernelIdeal.nD Cert.KernelIdeal.τ).loc Cert.KernelIdeal.main_arg4)) := by
  unfold regionResult
  rw [Cert.KernelIdeal.HostSide.left_found, Cert.KernelIdeal.HostSide.right_found, Cert.KernelIdeal.HostSide.bias_found]
  exact reshaped_product_eq _ _ _

end Cert.Bridge

end
-- ==== Proof.lean ====
/-
  A sparse-weight dense layer: `y = x · Wᵀ + bias` over activations x [2, 2048, 4096], where the weight matrix
  W [4096, 4096] is given as 1,600,000 (value, row, column) triples and built by scatter-adding the values into a zero
  matrix, duplicates summed.

  Both programs build W by the same host operations on the same arguments, so W enters the proof as one unopened term.
  The kernel then flattens x to 4096 rows and runs a 4 × 4 × 4 grid of 1024 × 1024 tiles: for the output tile (i, j) the
  reduction axis k = 0 … 3 starts the tile at the bias row broadcast over its rows and adds, at each k, the product of the
  (i, k) tile of x with the transposed (j, k) tile of W; the tile is written back after k = 3. On the extended reals every
  change of float format is the identity and every operation exact, so the tile ends at
      bias[C] + (d₀ + d₁ + d₂ + d₃),   d_s = Σ_{k < 1024} x[R, 1024·s + k] · W[C, 1024·s + k],
  at its entry (R, C) of the result. The reference contracts the whole last axis at once,
      Σ_{k < 4096} x[b, s, k] · W[o, k],   then adds bias[o].
  Four consecutive blocks of 1024 make up the 4096 columns, and re-grouping a finite sum and swapping the two summands of
  one addition need only that addition of extended reals is commutative and associative: the two results are equal at
  every entry, infinite entries included, and the precondition (finite inputs) is never opened.

  The modules: `Pieces` (what one grid point leaves in the output tile), `Payload` (the body's arithmetic at one element),
  `Blocks` (a tile as a rectangle of its array), `Fold` (the running sum along a run of the reduction axis), `BlockSum`
  (the re-grouping law), `TileValue` (a finished tile in terms of the whole arrays), `Result` (the tiles cover the
  result), `HostSide` (the reshapes and the weight matrix around the region), `Spec` (the dense layer as one function)
  and `Bridge` (both programs compute it).
-/
import proofs.«118737_j9861244911617_2_alg».proof.Defs
import proofs.«118737_j9861244911617_2_alg».proof.Proof.Gen.Kernel
import proofs.«118737_j9861244911617_2_alg».proof.Proof.Gen.Kernel.Skeleton
import proofs.«118737_j9861244911617_2_alg».proof.Proof.Gen.Kernel.Launch
import proofs.«118737_j9861244911617_2_alg».proof.Proof.Gen.Kernel.Points
import proofs.«118737_j9861244911617_2_alg».proof.Proof.Gen.Kernel.Frame
import proofs.«118737_j9861244911617_2_alg».proof.Proof.Gen.KernelIdeal
import proofs.«118737_j9861244911617_2_alg».proof.Proof.Gen.KernelIdeal.Skeleton
import proofs.«118737_j9861244911617_2_alg».proof.Proof.Gen.KernelIdeal.Launch
import proofs.«118737_j9861244911617_2_alg».proof.Proof.Gen.KernelIdeal.Points
import proofs.«118737_j9861244911617_2_alg».proof.Proof.Gen.KernelIdeal.Frame
import proofs.«118737_j9861244911617_2_alg».proof.Proof.Gen.ReferenceIdeal
import proofs.«118737_j9861244911617_2_alg».proof.Proof.Gen.Pre_finite_inputs
import proofs.«118737_j9861244911617_2_alg».proof.Proof.Gen.ReferenceIdeal.Run
import proofs.«118737_j9861244911617_2_alg».proof.Proof.Gen.ReferenceIdeal.Read
import proofs.«118737_j9861244911617_2_alg».proof.Proof.Bridge
import Idealize.ShloMosaic.Adequacy
import Idealize.ShloMosaic.Init

noncomputable section

namespace Cert.Proof

open Idealize.ShloMosaic Idealize.SL.Sem

/-- The three programs run to the end, fault nowhere, and leave their arguments as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From arguments that agree, the idealized kernel and the idealized reference both end at the dense layer
    `bias[o] + Σ_k x[b, s, k] · W[o, k]` of the activations, the scatter-added weight matrix and the bias. -/
theorem algebraic : Cert.algebraic_KernelIdeal_ReferenceIdeal := by
  intro m ρ m' ρ' _ hagree
  refine ⟨fun c => Cert.Spec.linear
      (m ((c.tc : Thread Cert.KernelIdeal.nD Cert.KernelIdeal.τ).loc Cert.KernelIdeal.main_arg0))
      (Cert.KernelIdeal.HostSide.weights m c)
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Bridge.kernel_result_eq m c), (h c).2⟩)
      (Cert.KernelIdeal.HostSide.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.Bridge.reference_eq, (hagree c).1, (hagree c).2.1,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
